-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S1024x128 : Shape := ⟨2, ![1024, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel

variable [Facts]

def fn {F : FTy → Type} [FloatOps F] (main_arg0 : IVec S1024 32) (main_arg1 : IVec S1024 32) (main_arg2 : FVec F S1024x128 .f32) : IVec S_ 1 :=
  let main_v0 : FVec F S1024x128 .f32 := Host.absf main_arg2
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  main_v3
-- ==== Kernel.lean ====
abbrev S1024 : Shape := ⟨1, ![1024]⟩
abbrev S1024x128 : Shape := ⟨2, ![1024, 128]⟩
abbrev S1x1024 : Shape := ⟨2, ![1, 1024]⟩
abbrev S2048x128 : Shape := ⟨2, ![2048, 128]⟩
abbrev S2048x1024 : Shape := ⟨2, ![2048, 1024]⟩

abbrev nBuf : Space → Nat
  | .hbm => 6
  | .vmem => 4
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S1024x128, .f32⟩
  | .hbm, ⟨3, _⟩ => ⟨S1x1024, .i32⟩
  | .hbm, ⟨4, _⟩ => ⟨S1x1024, .i32⟩
  | .hbm, ⟨5, _⟩ => ⟨S2048x128, .f32⟩
  | .local _ .vmem, ⟨0, _⟩ => ⟨S1x1024, .i32⟩
  | .local _ .vmem, ⟨1, _⟩ => ⟨S1x1024, .i32⟩
  | .local _ .vmem, ⟨2, _⟩ => ⟨S1024x128, .f32⟩
  | .local _ .vmem, ⟨3, _⟩ => ⟨S2048x128, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S1024_S1x1024 : S1024.ShapeCasts S1x1024
  iota_S2048x1024_d0_w32 : S2048x1024.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  natLt_1_32 : 1 < 32
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .i32 = 32 ∨ (Rect.block (s := S1x1024) S1x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .i32 = 32 ∨ (Rect.block (s := S1x1024) S1x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x128.size a
  hwx0_3 : ∀ i : grid0.Coords, EltTy.bits .f32 = 32 ∨ (Rect.block (s := S2048x128) S2048x128.size (cc0_transform_3 i) (hinb0_3 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_v0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024 : Shape := ⟨1, ![1024]⟩
abbrev S1024x128 : Shape := ⟨2, ![1024, 128]⟩
abbrev S2048 : Shape := ⟨1, ![2048]⟩
abbrev S1024x1 : Shape := ⟨2, ![1024, 1]⟩
abbrev S1x2048 : Shape := ⟨2, ![1, 2048]⟩
abbrev S1024x2048 : Shape := ⟨2, ![1024, 2048]⟩
abbrev S2048x128 : Shape := ⟨2, ![2048, 128]⟩

abbrev nBuf : Space → Nat
  | .hbm => 17
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S1024x128, .f32⟩
  | .hbm, ⟨3, _⟩ => ⟨S2048, .i32⟩
  | .hbm, ⟨4, _⟩ => ⟨S1024x1, .i32⟩
  | .hbm, ⟨5, _⟩ => ⟨S1x2048, .i32⟩
  | .hbm, ⟨6, _⟩ => ⟨S1024x2048, .i32⟩
  | .hbm, ⟨7, _⟩ => ⟨S1024x2048, .i32⟩
  | .hbm, ⟨8, _⟩ => ⟨S1024x2048, .i1⟩
  | .hbm, ⟨9, _⟩ => ⟨S1x2048, .i32⟩
  | .hbm, ⟨10, _⟩ => ⟨S1024x1, .i32⟩
  | .hbm, ⟨11, _⟩ => ⟨S1024x2048, .i32⟩
  | .hbm, ⟨12, _⟩ => ⟨S1024x2048, .i32⟩
  | .hbm, ⟨13, _⟩ => ⟨S1024x2048, .i1⟩
  | .hbm, ⟨14, _⟩ => ⟨S1024x2048, .i1⟩
  | .hbm, ⟨15, _⟩ => ⟨S1024x2048, .f32⟩
  | .hbm, ⟨16, _⟩ => ⟨S2048x128, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S2048_S1x2048_1 : S2048.BroadcastsInDim S1x2048 (![1] : Fin 1 → Fin S1x2048.rank)
  bcast_S1024x1_S1024x2048_0_1 : S1024x1.BroadcastsInDim S1024x2048 (![0, 1] : Fin 2 → Fin S1024x2048.rank)
  bcast_S1x2048_S1024x2048_0_1 : S1x2048.BroadcastsInDim S1024x2048 (![0, 1] : Fin 2 → Fin S1024x2048.rank)
  dot_S1024x2048_S1024x128_S2048x128_0_0_1_1_n_n_wf : DotDims.WF S1024x2048 S1024x128 S2048x128 [0] [0] [1] [1] [] []

variable [Facts₀]

def dot_S1024x2048_S1024x128_S2048x128_0_0_1_1_n_n : DotDims S1024x2048 S1024x128 S2048x128 where
  lhsContracting := [0]
  rhsContracting := [0]
  lhsNonContracting := [1]
  rhsNonContracting := [1]
  lhsBatch := []
  rhsBatch := []
  wf := dot_S1024x2048_S1024x128_S2048x128_0_0_1_1_n_n_wf

class Facts : Prop extends Facts₀ where

variable [Facts]
-- ==== Proof.SpanSpec.lean ====
/-
  What both programs compute, as one function of the three argument arrays.

  Node n owns the token positions t with start_n ≤ t ≤ end_n, both comparisons signed, on 32-bit words, the position t
  written as a 32-bit word. Entry (t, f) of the result is the sum over the 1024 nodes n of cover(n, t) · embed(n, f),
  where cover(n, t) is the real number 1 when t lies in node n's span and 0 otherwise. No law of the extended reals
  beyond reading a sum term by term is needed to see the two programs agree, so nothing here asks the entries of
  embed to be finite.

  One program turns the one-bit answer into a float by reading it unsigned; the other first pads it with zeros to 32
  bits and reads that word signed. A single bit padded with zeros is never negative, so both readings are the number
  0 or 1 the bit spells.
-/
import Idealize.ShloMosaic.PureOps.Ideal
import Idealize.ShloMosaic.PureOps.Ideal.Laws
import Idealize.ShloMosaic.Lib.ValueIdx

noncomputable section

open scoped BigOperators

namespace Cert.SpanSum

open Idealize.ShloMosaic Idealize.ShloMosaic.ValueIdx

/-- Does the span [s, e] hold position t? Both ends are compared, signed, with t's 32-bit word; the answer is one bit. -/
def covers (s e : BitVec 32) (t : Nat) : BitVec 1 :=
  IntOp.andi (IntOp.cmpi .sle s (BitVec.ofNat 32 t)) (IntOp.cmpi .sle (BitVec.ofNat 32 t) e)

/-- A bit as an extended real: 0 or 1. -/
def weight (b : BitVec 1) : EReal := ((b.toNat : ℝ) : EReal)

/-- Entry (t, f) of the result: the embeddings of the nodes whose span holds t, summed. -/
def G (starts ends : (⟨1, ![1024]⟩ : Shape).Idx → BitVec 32) (embed : (⟨2, ![1024, 128]⟩ : Shape).Idx → EReal) :
    (⟨2, ![2048, 128]⟩ : Shape).Idx → EReal :=
  fun i => ∑ n : Fin 1024, weight (covers (starts (ix1 n)) (ends (ix1 n)) (i 0).val) * embed (ix2 n (i 1))

/-- A bit padded with zeros to 32 bits, read signed, is the bit read unsigned: the padded word is 0 or 1. -/
theorem toInt_pad (b : BitVec 1) : (b.setWidth 32).toInt = (b.toNat : Int) := by
  obtain ⟨⟨v, hv⟩⟩ := b
  have h : v = 0 ∨ v = 1 := by omega
  rcases h with rfl | rfl <;> rfl

/-- Reading the bit unsigned, as a float, is its weight. -/
theorem uitofp_bit (b : BitVec 1) : FloatOps.uitofp (F := Ideal) .f32 b = weight b := rfl

/-- Padding the bit to 32 bits and reading that word signed, as a float, is its weight too. -/
theorem sitofp_pad_bit (b : BitVec 1) : FloatOps.sitofp (F := Ideal) .f32 (b.setWidth 32) = weight b := by
  show (((b.setWidth 32).toInt : ℝ) : EReal) = ((b.toNat : ℝ) : EReal)
  rw [toInt_pad]
  rfl

end Cert.SpanSum

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.KernelEntry.lean ====
/-
  The kernel body's one stored value, read at an entry.

  The body builds a [2048, 1024] table whose entry (t, n) answers "does node n's span hold position t": the row of
  span starts and the row of span ends are each laid over all 2048 positions, the row counter gives every entry of
  row t the word of t, the two signed comparisons are joined by "and", and the resulting bit is padded to 32 bits and
  read signed as a float. That table times the [1024, 128] block of embeddings, summed into zero, is what the body
  stores. So entry (t, f) of the stored value is the sum over nodes n of weight(span test of n at t) · embed(n, f).
-/
import proofs.«158751_j31129922962204_2_alg».proof.Proof.Gen.KernelIdeal.Skeleton
import proofs.«158751_j31129922962204_2_alg».proof.Proof.SpanSpec
import proofs.«158751_j31129922962204_2_alg».proof.Proof.LibMatmulPlain
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.SpanSum

/-- A row [1, 1024] laid over [2048, 1024]: every row of the result is that row. The cast before it keeps the shape, so
    it changes nothing. -/
theorem spread_row (x : IVec S1x1024 32) (hc : S1x1024.ShapeCasts S1x1024) (hb : S1x1024.Broadcasts S2048x1024)
    (t : Fin 2048) (n : Fin 1024) :
    broadcastTo S2048x1024 (shapeCast S1x1024 x hc) hb (ix2 t n) = x (ix2 0 n) := by
  rw [shapeCast_self]
  exact broadcastTo_apply x hb (ix2 t n) (ix2 0 n) (fun a => match a with
    | ⟨0, _⟩ => by show (0 : Nat) = if (1 : Nat) = 1 then 0 else _; rw [if_pos rfl]
    | ⟨1, _⟩ => by show n.val = if (1024 : Nat) = 1 then 0 else n.val; rw [if_neg (by decide)])

/-- The row counter: every entry of row t holds the 32-bit word of t. -/
theorem row_number (h : S2048x1024.Iotas .tc 32 [0]) (t : Fin 2048) (n : Fin 1024) :
    iota .tc S2048x1024 32 [0] h (ix2 t n) = BitVec.ofNat 32 t.val :=
  iota_single_apply .tc S2048x1024 32 0 h (ix2 t n)

/-- The table of span tests as floats, from the row of starts and the row of ends. -/
def mask (starts ends : IVec S1x1024 32) : FVec Ideal S2048x1024 .f32 :=
  sitofp .f32 (extui 32 (andi
    (cmpi .sle (broadcastTo S2048x1024 (shapeCast S1x1024 starts shapeCasts_S1x1024_S1x1024) broadcasts_S1x1024_S2048x1024)
      (iota .tc S2048x1024 32 [0] iota_S2048x1024_d0_w32))
    (cmpi .sle (iota .tc S2048x1024 32 [0] iota_S2048x1024_d0_w32)
      (broadcastTo S2048x1024 (shapeCast S1x1024 ends shapeCasts_S1x1024_S1x1024) broadcasts_S1x1024_S2048x1024)))
    natLt_1_32)

/-- Entry (t, n) of the table is the weight of node n's span test at position t. -/
theorem mask_apply (starts ends : IVec S1x1024 32) (t : Fin 2048) (n : Fin 1024) :
    mask starts ends (ix2 t n) = weight (covers (starts (ix2 0 n)) (ends (ix2 0 n)) t.val) := by
  have e1 := spread_row starts shapeCasts_S1x1024_S1x1024 broadcasts_S1x1024_S2048x1024 t n
  have e3 := spread_row ends shapeCasts_S1x1024_S1x1024 broadcasts_S1x1024_S2048x1024 t n
  have e0 := row_number iota_S2048x1024_d0_w32 t n
  show FloatOps.sitofp (F := Ideal) .f32 ((IntOp.andi
      (IntOp.cmpi .sle (broadcastTo S2048x1024 (shapeCast S1x1024 starts _) _ (ix2 t n)) (iota .tc S2048x1024 32 [0] _ (ix2 t n)))
      (IntOp.cmpi .sle (iota .tc S2048x1024 32 [0] _ (ix2 t n)) (broadcastTo S2048x1024 (shapeCast S1x1024 ends _) _ (ix2 t n)))).setWidth 32) = _
  rw [e1, e3, e0]
  exact sitofp_pad_bit _

/-- The stored value is the table times the embeddings, summed into zero. -/
theorem pay_eq (v1 v3 : Vec Ideal S1x1024 .i32) (v12 : Vec Ideal S1024x128 .f32) :
    k0_pay1 (F := Ideal) v1 v3 v12
      = matmul (φ₂ := .f32) dot_S2048x1024_S1024x128_S2048x128_1_0_0_1_n_n none (mask v1 v3) v12 (constant S2048x128 .f32 0x00000000#32) := rfl

/-- Entry (t, f) of the stored value: the embeddings of the nodes whose span holds t, summed. -/
theorem pay_apply (v1 v3 : Vec Ideal S1x1024 .i32) (v12 : Vec Ideal S1024x128 .f32) (t : Fin 2048) (f : Fin 128) :
    k0_pay1 (F := Ideal) v1 v3 v12 (ix2 t f)
      = ∑ n : Fin 1024, weight (covers (v1 (ix2 0 n)) (v3 (ix2 0 n)) t.val) * v12 (ix2 n f) := by
  refine (congrFun (pay_eq v1 v3 v12) (ix2 t f)).trans ?_
  refine (Cert.LibMatmulPlain.matmul_zero_apply (φ₂ := .f32) dot_S2048x1024_S1024x128_S2048x128_1_0_0_1_n_n rfl rfl rfl rfl rfl rfl
    none (mask v1 v3) v12 t f).trans ?_
  exact Finset.sum_congr rfl fun n _ => congrArg (· * v12 (ix2 n f)) (mask_apply v1 v3 t n)

end Cert.KernelIdeal.Body

end
-- ==== Proof.KernelValue.lean ====
/-
  The kernel's result array after the run is the specification of the three argument arrays.

  The launch has one grid point and every window's block is its whole array. So the block of starts the body loads is
  the [1, 1024] array the host made by reshaping the 1024 starts (entry (0, n) of it is start n), likewise the ends,
  the block of embeddings is the argument itself, and the one block the body writes back is the whole result. What
  the body stores at (t, f) is the sum over nodes of weight · embedding worked out for the stored value; read through
  these identifications it is the specification's entry (t, f). One block covers every index of the result, so the
  array ends equal to the specification everywhere.
-/
import proofs.«158751_j31129922962204_2_alg».proof.Proof.Gen.KernelIdeal.Value
import proofs.«158751_j31129922962204_2_alg».proof.Proof.KernelEntry
import Idealize.ShloMosaic.Lib.StableHlo.Run
import Idealize.ShloMosaic.Lib.Pipeline.Value
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.SpanSum
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-! ## One point: what the body stores, from what it loads -/

/-- If the loaded rows hold the starts and the ends, and the loaded block the embeddings, then the stored value at an
    index is the specification at the index with the same coordinates. -/
theorem stored_eq (x0 x1 : Vec Ideal S1x1024 .i32) (x2 : Vec Ideal S1024x128 .f32)
    (a0 a1 : (⟨1, ![1024]⟩ : Shape).Idx → BitVec 32) (a2 : (⟨2, ![1024, 128]⟩ : Shape).Idx → EReal)
    (h0 : ∀ n : Fin 1024, x0 (ix2 0 n) = a0 (ix1 n)) (h1 : ∀ n : Fin 1024, x1 (ix2 0 n) = a1 (ix1 n))
    (h2 : ∀ (n : Fin 1024) (f : Fin 128), x2 (ix2 n f) = a2 (ix2 n f))
    (y i : (⟨2, ![2048, 128]⟩ : Shape).Idx) (hi : ∀ a, (i a).val = (y a).val) :
    k0_pay1 (F := Ideal) x0 x1 x2 y = G a0 a1 a2 i := by
  obtain ⟨p, q, rfl⟩ : ∃ (p : Fin 2048) (q : Fin 128), y = ix2 p q := ⟨y 0, y 1, eq_ix2 y⟩
  have ei : i = ix2 p q := funext fun a => Fin.ext (by
    match a with
    | ⟨0, _⟩ => exact hi 0
    | ⟨1, _⟩ => exact hi 1)
  subst ei
  refine (Body.pay_apply x0 x1 x2 p q).trans ?_
  show _ = ∑ n : Fin 1024, weight (covers (a0 (ix1 n)) (a1 (ix1 n)) p.val) * a2 (ix2 n q)
  refine Finset.sum_congr rfl fun n _ => ?_
  rw [h0 n, h1 n, h2 n q]

/-! ## The arrays the windows read -/

/-- The array of window 0 when the region is entered: the starts, reshaped to one row. -/
theorem V_starts (c : Dev nD) :
    (V m c main_v0 : S1x1024.Idx → BitVec 32)
      = shapeCast S1x1024 (m ((c : Thread nD τ).loc main_arg0)) shapeCasts_S1024_S1x1024 := by
  dsimp only [Gen.V, Gen.hostOps0]; after_results; rfl

/-- The array of window 1 when the region is entered: the ends, reshaped to one row. -/
theorem V_ends (c : Dev nD) :
    (V m c main_v1 : S1x1024.Idx → BitVec 32)
      = shapeCast S1x1024 (m ((c : Thread nD τ).loc main_arg1)) shapeCasts_S1024_S1x1024 := by
  dsimp only [Gen.V, Gen.hostOps0]; after_results; rfl

/-- Entry (0, n) of a vector of 1024 words reshaped to one row is word n. -/
theorem row_of_vector (x : S1024.Idx → BitVec 32) (h : S1024.ShapeCasts S1x1024) (n : Fin 1024) :
    shapeCast S1x1024 x h (ix2 0 n) = x (ix1 n) := by
  refine shapeCast_apply x h (ix2 0 n) (ix1 n) ?_
  rw [Shape.rowMajor_val_one, Shape.rowMajor_val_two]
  show n.val = 0 * 1024 + n.val
  omega

/-- The printed index maps at the grid's points: every window's block index is zero on both axes. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The block of starts at a point: its entry (0, n) is start n. -/
theorem blk_starts (c : Dev nD) (t : Fin cfg0.N) (n : Fin 1024) :
    iblk m c 0 t (ix2 0 n) = m ((c : Thread nD τ).loc main_arg0) (ix1 n) := by
  obtain ⟨e0, e1, -⟩ := idx_facts t
  show V m c main_v0 (((cfg0.win 0).blk t).view.emb (ix2 0 n)) = _
  have he : ((cfg0.win 0).blk t).view.emb (ix2 0 n) = ix2 0 n := by
    funext a; apply Fin.ext
    match a with
    | ⟨0, _⟩ => show win0_0.index t (0 : Fin 2) * 1 + 1 * 0 = 0; omega
    | ⟨1, _⟩ => show win0_0.index t (1 : Fin 2) * 1024 + 1 * n.val = n.val; omega
  rw [he, V_starts]
  exact row_of_vector _ _ n

/-- The block of ends at a point: its entry (0, n) is end n. -/
theorem blk_ends (c : Dev nD) (t : Fin cfg0.N) (n : Fin 1024) :
    iblk m c 1 t (ix2 0 n) = m ((c : Thread nD τ).loc main_arg1) (ix1 n) := by
  obtain ⟨-, -, e0, e1, -⟩ := idx_facts t
  show V m c main_v1 (((cfg0.win 1).blk t).view.emb (ix2 0 n)) = _
  have he : ((cfg0.win 1).blk t).view.emb (ix2 0 n) = ix2 0 n := by
    funext a; apply Fin.ext
    match a with
    | ⟨0, _⟩ => show win0_1.index t (0 : Fin 2) * 1 + 1 * 0 = 0; omega
    | ⟨1, _⟩ => show win0_1.index t (1 : Fin 2) * 1024 + 1 * n.val = n.val; omega
  rw [he, V_ends]
  exact row_of_vector _ _ n

/-- The block of embeddings at a point is the argument array. -/
theorem blk_embed (c : Dev nD) (t : Fin cfg0.N) (n : Fin 1024) (f : Fin 128) :
    iblk m c 2 t (ix2 n f) = m ((c : Thread nD τ).loc main_arg2) (ix2 n f) := by
  obtain ⟨-, -, -, -, e0, e1, -⟩ := idx_facts t
  show V m c main_arg2 (((cfg0.win 2).blk t).view.emb (ix2 n f)) = _
  have he : ((cfg0.win 2).blk t).view.emb (ix2 n f) = ix2 n f := by
    funext a; apply Fin.ext
    match a with
    | ⟨0, _⟩ => show win0_2.index t (0 : Fin 2) * 1024 + 1 * n.val = n.val; omega
    | ⟨1, _⟩ => show win0_2.index t (1 : Fin 2) * 128 + 1 * f.val = f.val; omega
  rw [he, V_main_arg2]

/-! ## From the one block to the array -/

/-- What a point writes back is its block of the specification of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  unfold out0_3
  rw [View.canon_unit_zero zero_off]
  simp only [View.ld_unit_zero (S := S1x1024) zero_off, View.ld_unit_zero (S := S1024x128) zero_off]
  obtain ⟨-, -, -, -, -, -, e0, e1⟩ := idx_facts t
  funext j
  refine stored_eq (iblk m c 0 t) (iblk m c 1 t) (iblk m c 2 t)
    (m ((c : Thread nD τ).loc main_arg0)) (m ((c : Thread nD τ).loc main_arg1)) (m ((c : Thread nD τ).loc main_arg2))
    (blk_starts m c t) (blk_ends m c t) (blk_embed m c t) j (((cfg0.win 3).blk t).view.emb j) ?_
  intro a
  match a with
  | ⟨0, _⟩ => show win0_3.index t (0 : Fin 2) * 2048 + 1 * (j 0).val = (j 0).val; omega
  | ⟨1, _⟩ => show win0_3.index t (1 : Fin 2) * 128 + 1 * (j 1).val = (j 1).val; omega

/-- An index is in a point's block iff each coordinate is in the block's range on its axis. -/
theorem mem_blk (t : Fin cfg0.N) (i : S2048x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v2).slice (win0_3.rect t)).set ↔ _
  rw [View.set_slice_whole, Rect.mem_set_unit]
  exact Iff.rfl

/-- The one block holds every index of the result. -/
theorem cover (i : S2048x128.Idx) :
    ∃ t : Fin cfg0.N, (cfg0.win 3).flush t = true ∧ i ∈ ((cfg0.win 3).blk t).view.set := by
  refine ⟨t0_0, flush0_3 t0_0, ?_⟩
  rw [mem_blk]
  obtain ⟨-, -, -, -, -, -, e0, e1⟩ := idx_facts t0_0
  have hi0 : (i 0).val < 2048 := (i 0).isLt
  have hi1 : (i 1).val < 128 := (i 1).isLt
  intro a
  match a with
  | ⟨0, _⟩ => show win0_3.index t0_0 (0 : Fin 2) * 2048 ≤ (i 0).val ∧ (i 0).val < win0_3.index t0_0 (0 : Fin 2) * 2048 + 2048; omega
  | ⟨1, _⟩ => show win0_3.index t0_0 (1 : Fin 2) * 128 ≤ (i 1).val ∧ (i 1).val < win0_3.index t0_0 (1 : Fin 2) * 128 + 128; omega

/-- The result array after the run is the specification of the argument arrays. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The run, read -/

/-- Every weakly fair execution of the kernel's program terminates with the result array at the specification of the
    argument arrays, which end unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefEntry.lean ====
/-
  The reference's result is the specification.

  The reference lays the starts and the ends out as columns over [1024, 2048] (node by position), lays the position
  counter out as a row over the same shape, compares, joins the two bits by "and", reads the bit unsigned as a float,
  and contracts that [1024, 2048] table with the [1024, 128] embeddings along the node axis of both. Entry (t, f) of
  the result is therefore the sum over nodes n of table(n, t) · embed(n, f), and table(n, t) is the weight of node n's
  span test at position t: the same sum the specification writes, term by term.
-/
import proofs.«158751_j31129922962204_2_alg».proof.Proof.Gen.ReferenceIdeal.Read
import proofs.«158751_j31129922962204_2_alg».proof.Proof.SpanSpec

noncomputable section

open scoped BigOperators

namespace Cert.ReferenceIdeal.Entry

open Cert.ReferenceIdeal Cert.ReferenceIdeal.Read Idealize.ShloMosaic Idealize.ShloMosaic.ValueIdx Cert.SpanSum

/-- Entry (n, t) of the reference's table, read where the contraction reads it for result row t and node n. -/
theorem table_apply (x0 x1 : (⟨S1024, .i32⟩ : BufTy).Contents (Elt Ideal)) (i : S2048x128.Idx) (k : Fin 1024) :
    val_main_v12 (F := Ideal) x0 x1 (lidx_main_v13 i k) = weight (covers (x0 (ix1 k)) (x1 (ix1 k)) (i 0).val) := by
  have hs : idx_main_v1 (idx_main_v3 (lidx_main_v13 i k)) = ix1 k :=
    funext fun a => Fin.ext (by match a with | ⟨0, _⟩ => rfl)
  have he : idx_main_v7 (idx_main_v9 (lidx_main_v13 i k)) = ix1 k :=
    funext fun a => Fin.ext (by match a with | ⟨0, _⟩ => rfl)
  have ht : (idx_main_v2 (idx_main_v4 (lidx_main_v13 i k)) 0).val = (i 0).val := rfl
  have ht' : (idx_main_v6 (idx_main_v8 (lidx_main_v13 i k)) 0).val = (i 0).val := rfl
  rw [val_main_v12_apply, val_main_v11_apply, val_main_v5_apply, val_main_v10_apply, val_main_v3_apply, val_main_v1_apply,
    val_main_v4_apply, val_main_v2_apply, val_main_v0_apply, val_main_v8_apply, val_main_v6_apply, val_main_v0_apply,
    val_main_v9_apply, val_main_v7_apply, hs, he, ht, ht']
  exact uitofp_bit _

/-- The reference's last stage, as a whole array, is the specification of its three arguments. -/
theorem result_eq (x0 x1 : (⟨S1024, .i32⟩ : BufTy).Contents (Elt Ideal)) (x2 : (⟨S1024x128, .f32⟩ : BufTy).Contents (Elt Ideal)) :
    val_main_v13 (F := Ideal) x0 x1 x2 = G x0 x1 x2 := by
  funext i
  rw [val_main_v13_apply]
  show (∑ k : Fin 1024, _) = ∑ n : Fin 1024, weight (covers (x0 (ix1 n)) (x1 (ix1 n)) (i 0).val) * x2 (ix2 n (i 1))
  refine Finset.sum_congr rfl fun k _ => ?_
  have hr : ridx_main_v13 i k = ix2 k (i 1) :=
    funext fun a => Fin.ext (by match a with | ⟨0, _⟩ => rfl | ⟨1, _⟩ => rfl)
  exact congrArg₂ (· * ·) (table_apply x0 x1 i k) (congrArg x2 hr)

end Cert.ReferenceIdeal.Entry

end
-- ==== Proof.lean ====
/-
  A span encoder: out(t, f) = sum over the 1024 nodes n of [start_n ≤ t ≤ end_n] · embed(n, f), for 2048 token positions
  t and 128 features f, the comparisons signed on 32-bit words.

  The kernel builds the [2048, 1024] table of span tests (position by node) as floats and multiplies it into the
  [1024, 128] embeddings in one block; the reference builds the [1024, 2048] table (node by position) and contracts its
  node axis with the embeddings' node axis. On the extended reals both are the same sum, term by term: the table entry
  is the number 0 or 1 either way (one program reads the test bit unsigned, the other pads it with zeros to 32 bits and
  reads it signed), and each term is that number times embed(n, f) in the same order. No rearrangement of the sum and
  no cancellation is used, so the finiteness of embed is never needed.

  Both runs are stated at one function of the three argument arrays (Proof/SpanSpec.lean): the kernel's result array
  after its run (Proof/KernelValue.lean, over the generated frame run and Proof/KernelEntry.lean's reading of the
  stored value at an entry) and the reference's last stage (Proof/RefEntry.lean, over the generated reading of its
  operations). The kernel's idealization rewrote nothing, so there is nothing to preserve.
-/
import proofs.«158751_j31129922962204_2_alg».proof.Defs
import proofs.«158751_j31129922962204_2_alg».proof.Proof.Gen.Kernel
import proofs.«158751_j31129922962204_2_alg».proof.Proof.Gen.Kernel.Skeleton
import proofs.«158751_j31129922962204_2_alg».proof.Proof.Gen.Kernel.Launch
import proofs.«158751_j31129922962204_2_alg».proof.Proof.Gen.Kernel.Points
import proofs.«158751_j31129922962204_2_alg».proof.Proof.Gen.Kernel.Frame
import proofs.«158751_j31129922962204_2_alg».proof.Proof.Gen.KernelIdeal
import proofs.«158751_j31129922962204_2_alg».proof.Proof.Gen.KernelIdeal.Skeleton
import proofs.«158751_j31129922962204_2_alg».proof.Proof.Gen.KernelIdeal.Launch
import proofs.«158751_j31129922962204_2_alg».proof.Proof.Gen.KernelIdeal.Points
import proofs.«158751_j31129922962204_2_alg».proof.Proof.Gen.KernelIdeal.Frame
import proofs.«158751_j31129922962204_2_alg».proof.Proof.Gen.ReferenceIdeal
import proofs.«158751_j31129922962204_2_alg».proof.Proof.Gen.Pre_finite_inputs
import proofs.«158751_j31129922962204_2_alg».proof.Proof.Gen.KernelIdeal.Value
import proofs.«158751_j31129922962204_2_alg».proof.Proof.Gen.ReferenceIdeal.Run
import proofs.«158751_j31129922962204_2_alg».proof.Proof.Gen.ReferenceIdeal.Read
import proofs.«158751_j31129922962204_2_alg».proof.Proof.KernelValue
import proofs.«158751_j31129922962204_2_alg».proof.Proof.RefEntry
import Idealize.ShloMosaic.Adequacy
import Idealize.ShloMosaic.Init

noncomputable section

namespace Cert.Proof

open Idealize.ShloMosaic Idealize.ShloMosaic.TcCoe Idealize.SL.Sem

/-- The kernel as printed runs, faults nowhere, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array and the reference's both end at the
    span sum of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Entry.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
